-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S5000x128 : Shape := ⟨2, ![5000, 128]⟩
abbrev S5000x64 : Shape := ⟨2, ![5000, 64]⟩
abbrev S1x128 : Shape := ⟨2, ![1, 128]⟩
abbrev S800000x64 : Shape := ⟨2, ![800000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x128, .f32⟩
  | .hbm, ⟨13, _⟩ => ⟨S128x128, .f32⟩
  | .hbm, ⟨14, _⟩ => ⟨S128x64, .f32⟩
  | .hbm, ⟨15, _⟩ => ⟨S128x64, .f32⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S50000x64, .f32⟩
  | .hbm, ⟨33, _⟩ => ⟨S50000x64, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .bf16⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x64, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S64x128_S128x64_1_0 : S64x128.Transposes [1, 0] S128x64
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []
  dot_S50000x128_S64x128_S50000x64_1_1_0_0_n_n_wf : DotDims.WF S50000x128 S64x128 S50000x64 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def dot_S50000x128_S64x128_S50000x64_1_1_0_0_n_n : DotDims S50000x128 S64x128 S50000x64 where
  lhsContracting := [1]
  rhsContracting := [1]
  lhsNonContracting := [0]
  rhsNonContracting := [0]
  lhsBatch := []
  rhsBatch := []
  wf := dot_S50000x128_S64x128_S50000x64_1_1_0_0_n_n_wf

class Facts : Prop extends Facts₀ where

variable [Facts]
-- ==== Proof.KernelRun.lean ====
/-
  The idealized kernel's run, with its result kept.

  The program is four stretches in a row: host operations, the first layer's region, host operations, the second
  layer's region. The contents of the TensorCore's buffers at each boundary are a fold from the launch memory: a host
  stretch applies its operations, a region replaces its arrays by what its write-backs leave. Every weakly fair
  execution terminates with every unscoped buffer at the last boundary's contents; here that is read at the result
  buffer (the second region's output array) and at the eight arguments, which no stretch writes.
-/
import proofs.«152202_j21260088115544_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the arguments as
    launched. -/
theorem run : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.Edges.lean ====
/-
  Aggregation over the edges, read at an entry.

  Both layers aggregate over the same edges. An edge list is a 2 x 800000 array of integers: row 0 the source node of
  each edge, row 1 its destination. A source number below zero has 50000 added (the usual reading of a negative index)
  and is then used to pick a row, clamped into the array; the destination numbers are used as they are, to say which
  row an edge's contribution is added to (an edge whose destination is no row contributes nothing). The aggregate of an
  array x starts from zeros and adds, for every edge, row (source) of x to row (destination): its entry (n, k) is zero
  plus the sum, over the edges into n, of x at (the edge's source row, k). Which edges go into n, and which row an edge
  reads, depend on the edge list alone: not on x, nor on how many columns x has.
-/
import proofs.«152202_j21260088115544_2_alg».proof.KernelIdeal
import proofs.«152202_j21260088115544_2_alg».proof.Proof.Gen.KernelIdeal
import proofs.«152202_j21260088115544_2_alg».proof.Proof.LibGatherRows
import proofs.«152202_j21260088115544_2_alg».proof.Proof.LibScatterRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Edges

open Cert.KernelIdeal Cert.KernelIdeal.Gen Idealize.ShloMosaic Idealize.ShloMosaic.ValueIdx

/-- The edges' source numbers: row 0 of the edge list. -/
def edgeSrc (e : IVec S2x800000 32) : IVec S800000 32 :=
  shapeCast _ (extractStridedSlice S1x800000 ![0, 0] e slices_S2x800000_S1x800000_0_0) shapeCasts_S1x800000_S800000

/-- The edges' destination numbers: row 1 of the edge list. -/
def edgeDst (e : IVec S2x800000 32) : IVec S800000 32 :=
  shapeCast _ (extractStridedSlice S1x800000 ![1, 0] e slices_S2x800000_S1x800000_1_0) shapeCasts_S1x800000_S800000

/-- The row each edge reads, as a column of start indices: a negative source number has 50000 added. -/
def srcRows (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The row each edge adds to, as a column of scatter indices. -/
def dstRows (d : IVec S800000 32) : IVec S800000x1 32 :=
  broadcastInDim S800000x1 ![0] bcast_S800000_S800000x1_0 d

/-- The aggregate of a 128-column array over the edges. -/
def aggregate128 (x : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstRows d)
    (Host.gather gather_S50000x128_S800000x1_S800000x128_1_0_n_n_0_1_1128 x (srcRows s))

/-- The aggregate of a 64-column array over the edges. -/
def aggregate64 (x : FVec Ideal S50000x64 .f32) (s d : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32)) (dstRows d)
    (Host.gather gather_S50000x64_S800000x1_S800000x64_1_0_n_n_0_1_164 x (srcRows s))

theorem pos50000 : 0 < 50000 := Nat.succ_pos 49999

/-- The row of the array that edge e reads. -/
def srcOf (s : IVec S800000 32) (e : Fin 800000) : Fin 50000 :=
  GatherRows.rowOf (N := 50000) pos50000 (srcRows s) e

/-- The edges into node n. -/
def edgesInto (d : IVec S800000 32) (n : Fin 50000) : Finset (Fin 800000) :=
  ScatterRows.hits (N := 50000) (dstRows d) n

/-- The zeros an aggregate starts from. -/
theorem zeros_apply (t : Shape) (h : S_.BroadcastsInDim t ![]) (i : t.Idx) :
    broadcastInDim t ![] h (constant (F := Ideal) S_ .f32 0x00000000#32) i = 0 := by
  exact (broadcastInDim_apply _ h _ i (fun a => a.elim0) (fun a => a.elim0)).trans Ideal.ofBits_zero_f32

/-- The printed scatter records are the row scatter's dimension numbers. -/
theorem scatter128_eq : scatter_S50000x128_S800000x1_S800000x128_1_0_0_1
    = ScatterRows.rowDims 50000 800000 128 scatter_S50000x128_S800000x1_S800000x128_1_0_0_1.wf := rfl
theorem scatter64_eq : scatter_S50000x64_S800000x1_S800000x64_1_0_0_1
    = ScatterRows.rowDims 50000 800000 64 scatter_S50000x64_S800000x1_S800000x64_1_0_0_1.wf := rfl
/-- The printed gather records are the row gather's dimension numbers. -/
theorem gather128_eq : gather_S50000x128_S800000x1_S800000x128_1_0_n_n_0_1_1128
    = GatherRows.rowDims 50000 800000 128 gather_S50000x128_S800000x1_S800000x128_1_0_n_n_0_1_1128.wf := rfl
theorem gather64_eq : gather_S50000x64_S800000x1_S800000x64_1_0_n_n_0_1_164
    = GatherRows.rowDims 50000 800000 64 gather_S50000x64_S800000x1_S800000x64_1_0_n_n_0_1_164.wf := rfl

/-- A row scatter-add of gathered rows into zeros, at (n, k), for any number C of columns. -/
theorem aggregate_rows_apply {C : ℕ} (ws : ScatterDims.WF ⟨2, ![50000, C]⟩ ⟨2, ![800000, 1]⟩ ⟨2, ![800000, C]⟩ [1] [0] [0] 1)
    (wg : GatherDims.WF ⟨2, ![50000, C]⟩ ⟨2, ![800000, 1]⟩ ⟨2, ![800000, C]⟩ [1] [0] [] [0] [] 1 ![1, C])
    (z x : (⟨2, ![50000, C]⟩ : Shape).Idx → EReal) (hz : ∀ i, z i = 0) (si di : IVec ⟨2, ![800000, 1]⟩ 32)
    (n : Fin 50000) (k : Fin C) :
    Ideal.hostScatterAdd (ScatterRows.rowDims 50000 800000 C ws) z di (Host.gather (GatherRows.rowDims 50000 800000 C wg) x si) (ix2 n k)
      = 0 + ∑ e ∈ ScatterRows.hits (N := 50000) di n, x (ix2 (GatherRows.rowOf (N := 50000) pos50000 si e) k) := by
  rw [ScatterRows.scatterAdd_rows_apply, hz]
  refine congrArg (0 + ·) (Finset.sum_congr rfl fun e _ => ?_)
  exact GatherRows.gather_rows_apply pos50000 wg x si e k

/-- The 128-column aggregate is the row scatter-add, into zeros, of the row gather. -/
theorem aggregate128_eq (x : FVec Ideal S50000x128 .f32) (s d : IVec S800000 32) :
    aggregate128 x s d
      = Ideal.hostScatterAdd (ScatterRows.rowDims 50000 800000 128 scatter_S50000x128_S800000x1_S800000x128_1_0_0_1.wf)
          (broadcastInDim S50000x128 ![] bcast_S_S50000x128 (constant (F := Ideal) S_ .f32 0x00000000#32)) (dstRows d)
          (Host.gather (GatherRows.rowDims 50000 800000 128 gather_S50000x128_S800000x1_S800000x128_1_0_n_n_0_1_1128.wf) x (srcRows s)) := rfl

/-- The 64-column aggregate is the row scatter-add, into zeros, of the row gather. -/
theorem aggregate64_eq (x : FVec Ideal S50000x64 .f32) (s d : IVec S800000 32) :
    aggregate64 x s d
      = Ideal.hostScatterAdd (ScatterRows.rowDims 50000 800000 64 scatter_S50000x64_S800000x1_S800000x64_1_0_0_1.wf)
          (broadcastInDim S50000x64 ![] bcast_S_S50000x64 (constant (F := Ideal) S_ .f32 0x00000000#32)) (dstRows d)
          (Host.gather (GatherRows.rowDims 50000 800000 64 gather_S50000x64_S800000x1_S800000x64_1_0_n_n_0_1_164.wf) x (srcRows s)) := rfl

/-- The 128-column aggregate at (n, k): zero plus the sum over the edges into n of x at (the edge's source row, k). -/
theorem aggregate128_apply (x : FVec Ideal S50000x128 .f32) (s d : IVec S800000 32) (n : Fin 50000) (k : Fin 128) :
    aggregate128 x s d (ix2 n k) = 0 + ∑ e ∈ edgesInto d n, x (ix2 (srcOf s e) k) := by
  rw [aggregate128_eq]
  exact aggregate_rows_apply scatter_S50000x128_S800000x1_S800000x128_1_0_0_1.wf
    gather_S50000x128_S800000x1_S800000x128_1_0_n_n_0_1_1128.wf _ x (zeros_apply S50000x128 bcast_S_S50000x128) (srcRows s) (dstRows d) n k

/-- The 64-column aggregate at (n, o): zero plus the sum over the edges into n of x at (the edge's source row, o). -/
theorem aggregate64_apply (x : FVec Ideal S50000x64 .f32) (s d : IVec S800000 32) (n : Fin 50000) (o : Fin 64) :
    aggregate64 x s d (ix2 n o) = 0 + ∑ e ∈ edgesInto d n, x (ix2 (srcOf s e) o) := by
  rw [aggregate64_eq]
  exact aggregate_rows_apply scatter_S50000x64_S800000x1_S800000x64_1_0_0_1.wf
    gather_S50000x64_S800000x1_S800000x64_1_0_n_n_0_1_164.wf _ x (zeros_apply S50000x64 bcast_S_S50000x64) (srcRows s) (dstRows d) n o

end Cert.KernelIdeal.Edges

end
-- ==== Proof.HostSide.lean ====
/-
  The host operations around the two regions: what each region finds in its input buffers, as functions of the
  arguments.

  Before the first region the host transposes the four weight matrices, takes the edges' source and destination
  numbers off the edge list, and aggregates the node features over the edges. Between the regions it aggregates the
  message array the first region left, over the same edges. A buffer that a stretch does not write holds what it held
  before, and a region changes its own arrays only. A change of float format on the way is the identity on the
  extended reals.
-/
import proofs.«152202_j21260088115544_2_alg».proof.Proof.Gen.KernelIdeal.Frame
import proofs.«152202_j21260088115544_2_alg».proof.Proof.Edges
import Idealize.ShloMosaic.Lib.StableHlo.Run
import Idealize.ShloMosaic.PureOps.Ideal
import Idealize.ShloMosaic.Lib.ValueIdx

set_option maxRecDepth 16384

noncomputable section

namespace Cert.KernelIdeal.HostSide

open Cert.KernelIdeal Cert.KernelIdeal.Gen Cert.KernelIdeal.Edges Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

theorem V1_v19 (c : Dev nD) : (V1 m ρ c main_v19 : S50000x128.Idx → EReal)
    = aggregate128 (m ((c : Thread nD τ).loc main_arg0)) (edgeSrc (m ((c : Thread nD τ).loc main_arg1))) (edgeDst (m ((c : Thread nD τ).loc main_arg1))) := by
  show StableHlo.after hostOps0 (W0 m ρ c) (Proc.devRef .tc main_v19) = _
  unfold aggregate128 srcRows dstRows edgeSrc edgeDst
  after_results_simp
  rfl

theorem V1_arg0 (c : Dev nD) : V1 m ρ c main_arg0 = m ((c : Thread nD τ).loc main_arg0) := by
  show StableHlo.after hostOps0 (W0 m ρ c) (Proc.devRef .tc main_arg0) = _
  after_results

theorem V1_v4 (c : Dev nD) : (V1 m ρ c main_v4 : S128x128.Idx → EReal)
    = transpose S128x128 [1, 0] (m ((c : Thread nD τ).loc main_arg2)) transposes_S128x128_S128x128_1_0 := by
  show StableHlo.after hostOps0 (W0 m ρ c) (Proc.devRef .tc main_v4) = _
  after_results

theorem V1_v5 (c : Dev nD) : (V1 m ρ c main_v5 : S128x128.Idx → EReal)
    = transpose S128x128 [1, 0] (m ((c : Thread nD τ).loc main_arg3)) transposes_S128x128_S128x128_1_0 := by
  show StableHlo.after hostOps0 (W0 m ρ c) (Proc.devRef .tc main_v5) = _
  after_results

theorem V1_arg4 (c : Dev nD) : V1 m ρ c main_arg4 = m ((c : Thread nD τ).loc main_arg4) := by
  show StableHlo.after hostOps0 (W0 m ρ c) (Proc.devRef .tc main_arg4) = _
  after_results

theorem V1_v6 (c : Dev nD) : (V1 m ρ c main_v6 : S128x64.Idx → EReal)
    = transpose S128x64 [1, 0] (m ((c : Thread nD τ).loc main_arg5)) transposes_S64x128_S128x64_1_0 := by
  show StableHlo.after hostOps0 (W0 m ρ c) (Proc.devRef .tc main_v6) = _
  after_results

/-! ## What the second region finds -/

/-- The aggregated messages: the aggregate of what the first region left in its message array, over the edges' numbers
    as the first stretch left them. -/
theorem V3_v32 (c : Dev nD) : (V3 m ρ c main_v32 : S50000x64.Idx → EReal)
    = aggregate64 (W2 m ρ c (Proc.devRef .tc main_v20_1)) (W2 m ρ c (Proc.devRef .tc main_v1)) (W2 m ρ c (Proc.devRef .tc main_v3)) := by
  show StableHlo.after hostOps1 (W2 m ρ c) (Proc.devRef .tc main_v32) = _
  unfold aggregate64 srcRows dstRows
  after_results_simp
  rfl

theorem V3_v20_0 (c : Dev nD) : V3 m ρ c main_v20_0 = W2 m ρ c (Proc.devRef .tc main_v20_0) := by
  show StableHlo.after hostOps1 (W2 m ρ c) (Proc.devRef .tc main_v20_0) = _
  after_results_simp

theorem V3_v7 (c : Dev nD) : V3 m ρ c main_v7 = W2 m ρ c (Proc.devRef .tc main_v7) := by
  show StableHlo.after hostOps1 (W2 m ρ c) (Proc.devRef .tc main_v7) = _
  after_results_simp

theorem V3_arg7 (c : Dev nD) : V3 m ρ c main_arg7 = W2 m ρ c (Proc.devRef .tc main_arg7) := by
  show StableHlo.after hostOps1 (W2 m ρ c) (Proc.devRef .tc main_arg7) = _
  after_results_simp

/-! ## Through the first region: a buffer that is none of its arrays is as the first stretch left it -/

theorem W2_v1 (c : Dev nD) : (W2 m ρ c (Proc.devRef .tc main_v1) : S800000.Idx → BitVec 32) = edgeSrc (m ((c : Thread nD τ).loc main_arg1)) := by
  rw [W2_of_ne m ρ c main_v1 (by decide)]
  show StableHlo.after hostOps0 (W0 m ρ c) (Proc.devRef .tc main_v1) = _
  unfold edgeSrc
  after_results_simp
  rfl

theorem W2_v3 (c : Dev nD) : (W2 m ρ c (Proc.devRef .tc main_v3) : S800000.Idx → BitVec 32) = edgeDst (m ((c : Thread nD τ).loc main_arg1)) := by
  rw [W2_of_ne m ρ c main_v3 (by decide)]
  show StableHlo.after hostOps0 (W0 m ρ c) (Proc.devRef .tc main_v3) = _
  unfold edgeDst
  after_results_simp
  rfl

theorem W2_v7 (c : Dev nD) : (W2 m ρ c (Proc.devRef .tc main_v7) : S128x64.Idx → EReal)
    = transpose S128x64 [1, 0] (m ((c : Thread nD τ).loc main_arg6)) transposes_S64x128_S128x64_1_0 := by
  rw [W2_of_ne m ρ c main_v7 (by decide)]
  show StableHlo.after hostOps0 (W0 m ρ c) (Proc.devRef .tc main_v7) = _
  after_results_simp

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp

end Cert.KernelIdeal.HostSide

end
-- ==== Proof.Layers.lean ====
/-
  The two layers as functions of whole arrays, entry by entry, over the extended reals.

  hidden  (n, q) = max ((sum_k a (n, k) * w2 (k, q) + sum_k x (n, k) * w3 (k, q)) + b q) 0
  message (n, o) = sum_k t (n, k) * w (k, o)
  output  (n, o) = (agg (n, o) + sum_k t (n, k) * w (k, o)) + b o
  Every entry of a result depends on one row of the row-indexed operands only, so a block of rows of the result is the
  same function of the matching block of rows.
-/
import Idealize.ShloMosaic.PureOps.Ideal
import Idealize.ShloMosaic.Lib.ValueIdx

noncomputable section

open scoped BigOperators

namespace Cert.Layers

open Idealize.ShloMosaic Idealize.ShloMosaic.ValueIdx

/-- An a x b array of extended reals. -/
abbrev Mat (a b : ℕ) : Type := (⟨2, ![a, b]⟩ : Shape).Idx → EReal
/-- A vector of a extended reals. -/
abbrev Row (a : ℕ) : Type := (⟨1, ![a]⟩ : Shape).Idx → EReal

/-- The row of an entry. -/
def row {a b : ℕ} (i : (⟨2, ![a, b]⟩ : Shape).Idx) : Fin a := ⟨(i 0).val, idx2_lt0 i⟩
/-- The column of an entry. -/
def col {a b : ℕ} (i : (⟨2, ![a, b]⟩ : Shape).Idx) : Fin b := ⟨(i 1).val, idx2_lt1 i⟩

theorem row_ix2 {a b : ℕ} (p : Fin a) (q : Fin b) : row (ix2 p q) = p := rfl
theorem col_ix2 {a b : ℕ} (p : Fin a) (q : Fin b) : col (ix2 p q) = q := rfl

/-- The first layer: aggregated rows and own rows through their weights, plus the bias, clamped below at zero. -/
def hidden {n d h : ℕ} (a x : Mat n d) (w2 w3 : Mat d h) (b : Row h) : Mat n h := fun i =>
  max ((∑ k : Fin d, a (ix2 (row i) k) * w2 (ix2 k (col i)) + ∑ k : Fin d, x (ix2 (row i) k) * w3 (ix2 k (col i))) + b (ix1 (col i))) 0

/-- The message a node sends: its hidden row through the relation weights. -/
def message {n h o : ℕ} (t : Mat n h) (w : Mat h o) : Mat n o := fun i =>
  ∑ k : Fin h, t (ix2 (row i) k) * w (ix2 k (col i))

/-- The second layer: the aggregated messages plus the hidden row through the root weights plus the bias. -/
def output {n h o : ℕ} (agg : Mat n o) (t : Mat n h) (w : Mat h o) (b : Row o) : Mat n o := fun i =>
  (agg i + ∑ k : Fin h, t (ix2 (row i) k) * w (ix2 k (col i))) + b (ix1 (col i))

theorem hidden_apply {n d h : ℕ} (a x : Mat n d) (w2 w3 : Mat d h) (b : Row h) (p : Fin n) (q : Fin h) :
    hidden a x w2 w3 b (ix2 p q)
      = max ((∑ k : Fin d, a (ix2 p k) * w2 (ix2 k q) + ∑ k : Fin d, x (ix2 p k) * w3 (ix2 k q)) + b (ix1 q)) 0 := rfl

theorem message_apply {n h o : ℕ} (t : Mat n h) (w : Mat h o) (p : Fin n) (q : Fin o) :
    message t w (ix2 p q) = ∑ k : Fin h, t (ix2 p k) * w (ix2 k q) := rfl

theorem output_apply {n h o : ℕ} (agg : Mat n o) (t : Mat n h) (w : Mat h o) (b : Row o) (p : Fin n) (q : Fin o) :
    output agg t w b (ix2 p q) = (agg (ix2 p q) + ∑ k : Fin h, t (ix2 p k) * w (ix2 k q)) + b (ix1 q) := rfl

end Cert.Layers

end
-- ==== Proof.KernelFn.lean ====
/-
  The kernel's result as one function of its arguments.

  hidden  = the first layer of (the node features aggregated over the edges, the node features, the two first-layer
            weight matrices transposed, the first bias);
  message = hidden * (second relation weights transposed);
  result  = the second layer of (the messages aggregated over the same edges, hidden, the second root weights
            transposed, the second bias).
-/
import proofs.«152202_j21260088115544_2_alg».proof.Proof.Edges
import proofs.«152202_j21260088115544_2_alg».proof.Proof.Layers
import Idealize.ShloMosaic.Lib.ValueLayout

set_option maxRecDepth 16384

noncomputable section

open scoped BigOperators

namespace Cert.KernelIdeal.Fn

open Cert.KernelIdeal Cert.KernelIdeal.Gen Cert.KernelIdeal.Edges Cert.Layers Idealize.ShloMosaic

/-- The hidden array as a function of the arguments. -/
def hiddenK (x : FVec Ideal S50000x128 .f32) (e : IVec S2x800000 32) (w2 w3 : FVec Ideal S128x128 .f32)
    (b1 : FVec Ideal S128 .f32) : Mat 50000 128 :=
  hidden (aggregate128 x (edgeSrc e) (edgeDst e)) x (transpose S128x128 [1, 0] w2 transposes_S128x128_S128x128_1_0)
    (transpose S128x128 [1, 0] w3 transposes_S128x128_S128x128_1_0) b1

/-- The message array as a function of the arguments. -/
def messageK (x : FVec Ideal S50000x128 .f32) (e : IVec S2x800000 32) (w2 w3 : FVec Ideal S128x128 .f32)
    (b1 : FVec Ideal S128 .f32) (w5 : FVec Ideal S64x128 .f32) : Mat 50000 64 :=
  message (hiddenK x e w2 w3 b1) (transpose S128x64 [1, 0] w5 transposes_S64x128_S128x64_1_0)

/-- The result as a function of the arguments. -/
def resultK (x : FVec Ideal S50000x128 .f32) (e : IVec S2x800000 32) (w2 w3 : FVec Ideal S128x128 .f32)
    (b1 : FVec Ideal S128 .f32) (w5 w6 : FVec Ideal S64x128 .f32) (b2 : FVec Ideal S64 .f32) : Mat 50000 64 :=
  output (aggregate64 (messageK x e w2 w3 b1 w5) (edgeSrc e) (edgeDst e)) (hiddenK x e w2 w3 b1)
    (transpose S128x64 [1, 0] w6 transposes_S64x128_S128x64_1_0) b2

/-- A first-layer weight matrix transposed reads, at (k, q), the matrix at (q, k). -/
theorem w128_apply (w : FVec Ideal S128x128 .f32) (k q : Fin 128) :
    transpose S128x128 [1, 0] w transposes_S128x128_S128x128_1_0 (ValueIdx.ix2 k q) = w (ValueIdx.ix2 q k) :=
  ValueIdx.transpose_ix2_apply (a := 128) (b := 128) w transposes_S128x128_S128x128_1_0 k q

/-- A second-layer weight matrix transposed reads, at (k, o), the matrix at (o, k). -/
theorem w64_apply (w : FVec Ideal S64x128 .f32) (k : Fin 128) (o : Fin 64) :
    transpose S128x64 [1, 0] w transposes_S64x128_S128x64_1_0 (ValueIdx.ix2 k o) = w (ValueIdx.ix2 o k) :=
  ValueIdx.transpose_ix2_apply (a := 64) (b := 128) w transposes_S64x128_S128x64_1_0 k o

open Idealize.ShloMosaic.ValueIdx in
/-- The hidden array at (n, q), the weights read as given (row q, column k). -/
theorem hiddenK_apply (x : FVec Ideal S50000x128 .f32) (e : IVec S2x800000 32) (w2 w3 : FVec Ideal S128x128 .f32)
    (b1 : FVec Ideal S128 .f32) (n : Fin 50000) (q : Fin 128) :
    hiddenK x e w2 w3 b1 (ix2 n q)
      = max ((∑ k : Fin 128, aggregate128 x (edgeSrc e) (edgeDst e) (ix2 n k) * w2 (ix2 q k)
          + ∑ k : Fin 128, x (ix2 n k) * w3 (ix2 q k)) + b1 (ix1 q)) 0 := by
  unfold hiddenK
  rw [Layers.hidden_apply]
  refine congrArg₂ max (congrArg₂ (· + ·) (congrArg₂ (· + ·) (Finset.sum_congr rfl fun k _ => ?_)
    (Finset.sum_congr rfl fun k _ => ?_)) rfl) rfl
  · rw [w128_apply]
  · rw [w128_apply]

open Idealize.ShloMosaic.ValueIdx in
/-- The message array at (n, o): the hidden row against row o of the second relation weights. -/
theorem messageK_apply (x : FVec Ideal S50000x128 .f32) (e : IVec S2x800000 32) (w2 w3 : FVec Ideal S128x128 .f32)
    (b1 : FVec Ideal S128 .f32) (w5 : FVec Ideal S64x128 .f32) (n : Fin 50000) (o : Fin 64) :
    messageK x e w2 w3 b1 w5 (ix2 n o) = ∑ k : Fin 128, hiddenK x e w2 w3 b1 (ix2 n k) * w5 (ix2 o k) := by
  unfold messageK
  rw [Layers.message_apply]
  exact Finset.sum_congr rfl fun k _ => by rw [w64_apply]

open Idealize.ShloMosaic.ValueIdx in
/-- The result at (n, o): the messages summed over the edges into n, plus the hidden row against row o of the second
    root weights, plus the bias. -/
theorem resultK_apply (x : FVec Ideal S50000x128 .f32) (e : IVec S2x800000 32) (w2 w3 : FVec Ideal S128x128 .f32)
    (b1 : FVec Ideal S128 .f32) (w5 w6 : FVec Ideal S64x128 .f32) (b2 : FVec Ideal S64 .f32) (n : Fin 50000) (o : Fin 64) :
    resultK x e w2 w3 b1 w5 w6 b2 (ix2 n o)
      = ((0 + ∑ ed ∈ edgesInto (edgeDst e) n, messageK x e w2 w3 b1 w5 (ix2 (srcOf (edgeSrc e) ed) o))
          + ∑ k : Fin 128, hiddenK x e w2 w3 b1 (ix2 n k) * w6 (ix2 o k)) + b2 (ix1 o) := by
  unfold resultK
  rw [Layers.output_apply, aggregate64_apply]
  refine congrArg₂ (· + ·) (congrArg₂ (· + ·) rfl (Finset.sum_congr rfl fun k _ => ?_)) rfl
  rw [w64_apply]

end Cert.KernelIdeal.Fn

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Payloads.lean ====
/-
  The two kernel bodies' arithmetic, read at an entry, over the extended reals.

  First layer, entry (p, q) of a block of 5000 rows: the aggregated rows times the relation weights plus the rows
  themselves times the root weights (both products from a zero accumulator), plus the bias at q, clamped below at zero.
  Its message, entry (p, o): the hidden row p times column o of the second layer's relation weights.
  Second layer, entry (p, o): the aggregated message plus the hidden row times the root weights plus the bias at o.
  A change of float format is the identity here, and a cast of a vector to its own shape changes nothing.
-/
import proofs.«152202_j21260088115544_2_alg».proof.Proof.Gen.KernelIdeal.Skeleton
import proofs.«152202_j21260088115544_2_alg».proof.Proof.LibMatmulPlain
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- A bias vector laid out as one row and repeated down the rows reads, at (p, q), the bias at q. -/
theorem bias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The f32 zero word is the number zero. -/
theorem zero_word : Ideal.ofBits .f32 0x00000000#32 = 0 := Ideal.ofBits_zero_f32

/-- The matrix unit's product of a 5000-row block with a 128 x 128 matrix, from zero, at (p, q). -/
theorem mm_hidden {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  MatmulPlain.matmul_zero_apply (M := 5000) (K := 128) (N := 128) none A B (ix2 p q)

/-- The matrix unit's product of a 5000-row block with a 128 x 64 matrix, from zero, at (p, o). -/
theorem mm_out {φ₁ φ₂ : FTy} (A : FVec Ideal S5000x128 φ₁) (B : FVec Ideal S128x64 φ₂) (p : Fin 5000) (o : Fin 64) :
    matmul dot_S5000x128_S128x64_S5000x64_1_0_0_1_n_n none A B (constant (F := Ideal) S5000x64 .f32 0x00000000#32) (ix2 p o)
      = ∑ k : Fin 128, A (ix2 p k) * B (ix2 k o) :=
  MatmulPlain.matmul_zero_apply (M := 5000) (K := 128) (N := 64) none A B (ix2 p o)

/-- The first layer's hidden value at (p, q). -/
theorem hidden_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) 0 := by
  unfold k0_pay1
  show max ((matmul dot_S5000x128_S128x128_S5000x128_1_0_0_1_n_n none _ _ (constant (F := Ideal) S5000x128 .f32 0x00000000#32) (ix2 p q)
      + matmul dot_S5000x128_S128x128_S5000x128_1_0_0_1_n_n none _ _ (constant (F := Ideal) S5000x128 .f32 0x00000000#32) (ix2 p q))
      + broadcastTo S5000x128 (shapeCast S1x128 x4 shapeCasts_S128_S1x128) broadcasts_S1x128_S5000x128 (ix2 p q))
      (Ideal.ofBits .f32 0x00000000#32) = _
  rw [mm_hidden, mm_hidden, bias_apply, zero_word]
  simp only [shapeCast_self]
  rfl

/-- The first layer's message at (p, o): the hidden row against column o of the second relation weights. -/
theorem message_apply (x0 x1 : Vec Ideal S5000x128 .f32) (x2 x3 : Vec Ideal S128x128 .f32) (x4 : Vec Ideal S128 .f32)
    (x5 : Vec Ideal S128x64 .f32) (p : Fin 5000) (o : Fin 64) :
    k0_pay2 (F := Ideal) x0 x1 x2 x3 x4 x5 (ix2 p o)
      = ∑ k : Fin 128, k0_pay1 (F := Ideal) x0 x1 x2 x3 x4 (ix2 p k) * x5 (ix2 k o) := by
  unfold k0_pay2
  show matmul dot_S5000x128_S128x64_S5000x64_1_0_0_1_n_n none _ _ (constant (F := Ideal) S5000x64 .f32 0x00000000#32) (ix2 p o) = _
  rw [mm_out]
  simp only [shapeCast_self]
  rfl

/-- The second layer's value at (p, o). -/
theorem out_apply (x1 : Vec Ideal S5000x128 .f32) (x2 : Vec Ideal S128x64 .f32) (x0 : Vec Ideal S5000x64 .f32) (x3 : Vec Ideal S64 .f32)
    (p : Fin 5000) (o : Fin 64) :
    k1_pay1 (F := Ideal) x1 x2 x0 x3 (ix2 p o)
      = (x0 (ix2 p o) + ∑ k : Fin 128, x1 (ix2 p k) * x2 (ix2 k o)) + x3 (ix1 o) := by
  unfold k1_pay1
  show (shapeCast S5000x64 x0 shapeCasts_S5000x64_S5000x64 (ix2 p o)
      + matmul dot_S5000x128_S128x64_S5000x64_1_0_0_1_n_n none _ _ (constant (F := Ideal) S5000x64 .f32 0x00000000#32) (ix2 p o))
      + broadcastTo S5000x64 (shapeCast S1x64 x3 shapeCasts_S64_S1x64) broadcasts_S1x64_S5000x64 (ix2 p o) = _
  rw [mm_out, bias_apply]
  simp only [shapeCast_self]
  rfl

end Cert.KernelIdeal.Payload

end
-- ==== Proof.Layer1.lean ====
/-
  The first layer's region: what its two output arrays hold when it is left.

  The grid has ten points; point t reads rows 5000 t .. 5000 t + 4999 of the aggregated rows and of the node features,
  reads the two weight matrices, the bias and the second relation weights whole, and writes rows 5000 t .. 5000 t + 4999
  of the hidden array and of the message array. A hidden entry depends on its own row of the two row-indexed inputs
  only, so what point t writes back is block t of one whole-array function of the region's input arrays; the ten
  blocks cover the 50000 rows, so each output array ends as that function. Stated for any contents of the buffers at
  the region's entry.
-/
import proofs.«152202_j21260088115544_2_alg».proof.Proof.Gen.KernelIdeal.Frame
import proofs.«152202_j21260088115544_2_alg».proof.Proof.Payloads
import proofs.«152202_j21260088115544_2_alg».proof.Proof.Layers

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.ShloMosaic.Pipeline (Dat Cfg Window)
open Cert.Layers

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the row-indexed windows are at block row t, column 0; the others at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 10 := lt_of_lt_of_eq t.isLt N_0

/-! ## The input blocks at a point -/

/-- Block t of the aggregated rows: entry (p, k) is the array's entry (5000 t + p, k). -/
theorem blk0 (c : Dev nD) (t : Fin cfg0.N) (p : Fin 5000) (hp : t.val * 5000 + p.val < 50000) (k : Fin 128) :
    iblk0 V c 0 t (ix2 p k) = V c main_v19 (ix2 ⟨t.val * 5000 + p.val, hp⟩ k) := by
  obtain ⟨e0, e1, -⟩ := idx_facts t
  show V c main_v19 (((cfg0.win 0).blk t).view.emb (ix2 p k)) = _
  refine congrArg (V c main_v19) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block t of the node features: entry (p, k) is the array's entry (5000 t + p, k). -/
theorem blk1 (c : Dev nD) (t : Fin cfg0.N) (p : Fin 5000) (hp : t.val * 5000 + p.val < 50000) (k : Fin 128) :
    iblk0 V c 1 t (ix2 p k) = V c main_arg0 (ix2 ⟨t.val * 5000 + p.val, hp⟩ k) := by
  obtain ⟨-, -, e0, e1, -⟩ := idx_facts t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The relation weights are read whole. -/
theorem blk2 (c : Dev nD) (t : Fin cfg0.N) (k : Fin 128) (q : Fin 128) :
    iblk0 V c 2 t (ix2 k q) = V c main_v4 (ix2 k q) := by
  obtain ⟨-, -, -, -, e0, e1, -⟩ := idx_facts t
  show V c main_v4 (((cfg0.win 2).blk t).view.emb (ix2 k q)) = _
  refine congrArg (V c main_v4) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The root weights are read whole. -/
theorem blk3 (c : Dev nD) (t : Fin cfg0.N) (k : Fin 128) (q : Fin 128) :
    iblk0 V c 3 t (ix2 k q) = V c main_v5 (ix2 k q) := by
  obtain ⟨-, -, -, -, -, -, e0, e1, -⟩ := idx_facts t
  show V c main_v5 (((cfg0.win 3).blk t).view.emb (ix2 k q)) = _
  refine congrArg (V c main_v5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias is read whole. -/
theorem blk4 (c : Dev nD) (t : Fin cfg0.N) (q : Fin 128) :
    iblk0 V c 4 t (ix1 q) = V c main_arg4 (ix1 q) := by
  obtain ⟨-, -, -, -, -, -, -, -, e0, -⟩ := idx_facts t
  show V c main_arg4 (((cfg0.win 4).blk t).view.emb (ix1 q)) = _
  refine congrArg (V c main_arg4) (funext fun a => Fin.ext ?_)
  match a with
  | ⟨0, _⟩ => show win0_4.index t (0 : Fin 1) * 128 + 1 * q.val = q.val; omega

/-- The second layer's relation weights are read whole. -/
theorem blk5 (c : Dev nD) (t : Fin cfg0.N) (k : Fin 128) (o : Fin 64) :
    iblk0 V c 5 t (ix2 k o) = V c main_v6 (ix2 k o) := by
  obtain ⟨-, -, -, -, -, -, -, -, -, e0, e1, -⟩ := idx_facts t
  show V c main_v6 (((cfg0.win 5).blk t).view.emb (ix2 k o)) = _
  refine congrArg (V c main_v6) (funext fun a => Fin.ext ?_)
  match a with
  | ⟨0, _⟩ => show win0_5.index t (0 : Fin 2) * 128 + 1 * k.val = k.val; omega
  | ⟨1, _⟩ => show win0_5.index t (1 : Fin 2) * 64 + 1 * o.val = o.val; omega

/-! ## The hidden array -/

/-- The hidden layer of the region's input arrays. -/
abbrev hiddenOf (c : Dev nD) : Mat 50000 128 :=
  hidden (V c main_v19) (V c main_arg0) (V c main_v4) (V c main_v5) (V c main_arg4)

/-- The body's hidden value of point t's blocks at (p, q) is the hidden layer of the whole arrays at (5000 t + p, q). -/
theorem hidden_blk (c : Dev nD) (t : Fin cfg0.N) (p : Fin 5000) (hp : t.val * 5000 + p.val < 50000) (q : Fin 128) :
    k0_pay1 (F := Ideal) (iblk0 V c 0 t) (iblk0 V c 1 t) (iblk0 V c 2 t) (iblk0 V c 3 t) (iblk0 V c 4 t) (ix2 p q)
      = hiddenOf V c (ix2 ⟨t.val * 5000 + p.val, hp⟩ q) := by
  refine (Payload.hidden_apply (iblk0 V c 0 t) (iblk0 V c 1 t) (iblk0 V c 2 t) (iblk0 V c 3 t) (iblk0 V c 4 t) p q).trans ?_
  refine Eq.trans ?_ (Layers.hidden_apply (V c main_v19) (V c main_arg0) (V c main_v4) (V c main_v5) (V c main_arg4)
    ⟨t.val * 5000 + p.val, hp⟩ q).symm
  simp only [blk0 V c t p hp, blk1 V c t p hp, blk2 V c t, blk3 V c t, blk4 V c t]

/-- WHAT POINT t WRITES BACK to the hidden array is block t of the hidden layer. -/
theorem flushed6 (c : Dev nD) (t : Fin cfg0.N) :
    (dat0 V c).flushed 6 t = ((cfg0.win 6).blk t).view.read (Elt Ideal) (hiddenOf V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  have hp : t.val * 5000 + p.val < 50000 := by have := t_lt t; have := p.isLt; omega
  obtain ⟨-, -, -, -, -, -, -, -, -, -, -, e0, e1, -⟩ := idx_facts t
  refine (hidden_blk V c t p hp q).trans ?_
  show hiddenOf V c _ = hiddenOf V c (((cfg0.win 6).blk t).view.emb (ix2 p q))
  refine congrArg (hiddenOf V c) (funext fun a => Fin.ext ?_)
  match a with
  | ⟨0, _⟩ => show t.val * 5000 + p.val = win0_6.index t (0 : Fin 2) * 5000 + 1 * p.val; omega
  | ⟨1, _⟩ => show q.val = win0_6.index t (1 : Fin 2) * 128 + 1 * q.val; omega

/-- An entry is in point t's block of the hidden array iff each coordinate is in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20_0).slice (win0_6.rect t)).set ↔ _
  rw [View.set_slice_whole, Rect.mem_set_unit]
  exact Iff.rfl

/-- Every entry of the hidden array is in the block of the point its row falls in. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_6 _, ?_⟩
  rw [mem_blk6]
  obtain ⟨-, -, -, -, -, -, -, -, -, -, -, e0, e1, -⟩ := idx_facts ⟨(i 0).val / 5000, hN⟩
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- THE HIDDEN ARRAY when the region is left: the hidden layer of the region's input arrays. -/
theorem final6 (c : Dev nD) : (dat0 V c).arrAt 6 cfg0.N = hiddenOf V c :=
  (dat0 V c).arrAt_eq_of_cover 6 (hiddenOf V c) (fun t _ => flushed6 V c t) cover6

/-! ## The message array -/

/-- The messages of the region's input arrays. -/
abbrev messageOf (c : Dev nD) : Mat 50000 64 := message (hiddenOf V c) (V c main_v6)

/-- WHAT POINT t WRITES BACK to the message array is block t of the messages. -/
theorem flushed7 (c : Dev nD) (t : Fin cfg0.N) :
    (dat0 V c).flushed 7 t = ((cfg0.win 7).blk t).view.read (Elt Ideal) (messageOf V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x128) hz2, View.ld_unit_zero (S := S128) hz1,
    View.ld_unit_zero (S := S128x64) hz2]
  funext j
  obtain ⟨p, o, rfl⟩ : ∃ (p : Fin 5000) (o : Fin 64), j = ix2 p o := ⟨j 0, j 1, eq_ix2 j⟩
  have hp : t.val * 5000 + p.val < 50000 := by have := t_lt t; have := p.isLt; omega
  obtain ⟨-, -, -, -, -, -, -, -, -, -, -, -, -, e0, e1⟩ := idx_facts t
  refine (Payload.message_apply (iblk0 V c 0 t) (iblk0 V c 1 t) (iblk0 V c 2 t) (iblk0 V c 3 t) (iblk0 V c 4 t) (iblk0 V c 5 t) p o).trans ?_
  have hm : messageOf V c (ix2 ⟨t.val * 5000 + p.val, hp⟩ o)
      = ∑ k : Fin 128, hiddenOf V c (ix2 ⟨t.val * 5000 + p.val, hp⟩ k) * V c main_v6 (ix2 k o) := rfl
  refine Eq.trans ?_ (hm.symm.trans ?_)
  · exact Finset.sum_congr rfl fun k _ => by rw [hidden_blk V c t p hp k, blk5 V c t k o]
  · show messageOf V c _ = messageOf V c (((cfg0.win 7).blk t).view.emb (ix2 p o))
    refine congrArg (messageOf V c) (funext fun a => Fin.ext ?_)
    match a with
    | ⟨0, _⟩ => show t.val * 5000 + p.val = win0_7.index t (0 : Fin 2) * 5000 + 1 * p.val; omega
    | ⟨1, _⟩ => show o.val = win0_7.index t (1 : Fin 2) * 64 + 1 * o.val; omega

/-- An entry is in point t's block of the message array iff each coordinate is in the block's range. -/
theorem mem_blk7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v20_1).slice (win0_7.rect t)).set ↔ _
  rw [View.set_slice_whole, Rect.mem_set_unit]
  exact Iff.rfl

/-- Every entry of the message array is in the block of the point its row falls in. -/
theorem cover7 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hN : (i 0).val / 5000 < cfg0.N := lt_of_lt_of_eq (by omega : (i 0).val / 5000 < 10) N_0.symm
  refine ⟨⟨(i 0).val / 5000, hN⟩, flush0_7 _, ?_⟩
  rw [mem_blk7]
  obtain ⟨-, -, -, -, -, -, -, -, -, -, -, -, -, e0, e1⟩ := idx_facts ⟨(i 0).val / 5000, hN⟩
  intro a
  match a with
  | ⟨0, _⟩ =>
    show win0_7.index ⟨(i 0).val / 5000, hN⟩ (0 : Fin 2) * 5000 ≤ (i 0).val ∧ (i 0).val < win0_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hN⟩ (1 : Fin 2) * 64 ≤ (i 1).val ∧ (i 1).val < win0_7.index ⟨(i 0).val / 5000, hN⟩ (1 : Fin 2) * 64 + 64
    rw [e1]; omega

/-- THE MESSAGE ARRAY when the region is left: the messages of the region's input arrays. -/
theorem final7 (c : Dev nD) : (dat0 V c).arrAt 7 cfg0.N = messageOf V c :=
  (dat0 V c).arrAt_eq_of_cover 7 (messageOf V c) (fun t _ => flushed7 V c t) cover7

end Cert.KernelIdeal.Layer1

end
-- ==== Proof.Layer2.lean ====
/-
  The second layer's region: what its output array holds when it is left.

  Point t of the ten reads rows 5000 t .. 5000 t + 4999 of the aggregated messages and of the hidden array, reads the
  root weights and the bias whole, and writes the same rows of the result. An entry of the result depends on its own
  row of the two row-indexed inputs only, so what point t writes back is block t of one whole-array function of the
  region's input arrays, and the ten blocks cover the 50000 rows. Stated for any contents of the buffers at the
  region's entry.
-/
import proofs.«152202_j21260088115544_2_alg».proof.Proof.Gen.KernelIdeal.Frame
import proofs.«152202_j21260088115544_2_alg».proof.Proof.Payloads
import proofs.«152202_j21260088115544_2_alg».proof.Proof.Layers

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.ShloMosaic.Pipeline (Dat Cfg Window)
open Cert.Layers

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the row-indexed windows are at block row t, column 0; the others at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem t_lt (t : Fin cfg1.N) : t.val < 10 := lt_of_lt_of_eq t.isLt N_1

/-! ## The input blocks at a point -/

/-- Block t of the aggregated messages: entry (p, o) is the array's entry (5000 t + p, o). -/
theorem blk0 (c : Dev nD) (t : Fin cfg1.N) (p : Fin 5000) (hp : t.val * 5000 + p.val < 50000) (o : Fin 64) :
    iblk1 V c 0 t (ix2 p o) = V c main_v32 (ix2 ⟨t.val * 5000 + p.val, hp⟩ o) := by
  obtain ⟨e0, e1, -⟩ := idx_facts t
  show V c main_v32 (((cfg1.win 0).blk t).view.emb (ix2 p o)) = _
  refine congrArg (V c main_v32) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * o.val = o.val; omega

/-- Block t of the hidden array: entry (p, k) is the array's entry (5000 t + p, k). -/
theorem blk1 (c : Dev nD) (t : Fin cfg1.N) (p : Fin 5000) (hp : t.val * 5000 + p.val < 50000) (k : Fin 128) :
    iblk1 V c 1 t (ix2 p k) = V c main_v20_0 (ix2 ⟨t.val * 5000 + p.val, hp⟩ k) := by
  obtain ⟨-, -, e0, e1, -⟩ := idx_facts t
  show V c main_v20_0 (((cfg1.win 1).blk t).view.emb (ix2 p k)) = _
  refine congrArg (V c main_v20_0) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The root weights are read whole. -/
theorem blk2 (c : Dev nD) (t : Fin cfg1.N) (k : Fin 128) (o : Fin 64) :
    iblk1 V c 2 t (ix2 k o) = V c main_v7 (ix2 k o) := by
  obtain ⟨-, -, -, -, e0, e1, -⟩ := idx_facts t
  show V c main_v7 (((cfg1.win 2).blk t).view.emb (ix2 k o)) = _
  refine congrArg (V c main_v7) (funext fun a => Fin.ext ?_)
  match a with
  | ⟨0, _⟩ => show win1_2.index t (0 : Fin 2) * 128 + 1 * k.val = k.val; omega
  | ⟨1, _⟩ => show win1_2.index t (1 : Fin 2) * 64 + 1 * o.val = o.val; omega

/-- The bias is read whole. -/
theorem blk3 (c : Dev nD) (t : Fin cfg1.N) (o : Fin 64) :
    iblk1 V c 3 t (ix1 o) = V c main_arg7 (ix1 o) := by
  obtain ⟨-, -, -, -, -, -, e0, -⟩ := idx_facts t
  show V c main_arg7 (((cfg1.win 3).blk t).view.emb (ix1 o)) = _
  refine congrArg (V c main_arg7) (funext fun a => Fin.ext ?_)
  match a with
  | ⟨0, _⟩ => show win1_3.index t (0 : Fin 1) * 64 + 1 * o.val = o.val; omega

/-! ## The result array -/

/-- The second layer of the region's input arrays. -/
abbrev outputOf (c : Dev nD) : Mat 50000 64 :=
  output (V c main_v32) (V c main_v20_0) (V c main_v7) (V c main_arg7)

/-- WHAT POINT t WRITES BACK is block t of the second layer. -/
theorem flushed4 (c : Dev nD) (t : Fin cfg1.N) :
    (dat1 V c).flushed 4 t = ((cfg1.win 4).blk t).view.read (Elt Ideal) (outputOf V c) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x64) hz2, View.ld_unit_zero (S := S5000x64) hz2,
    View.ld_unit_zero (S := S64) hz1]
  funext j
  obtain ⟨p, o, rfl⟩ : ∃ (p : Fin 5000) (o : Fin 64), j = ix2 p o := ⟨j 0, j 1, eq_ix2 j⟩
  have hp : t.val * 5000 + p.val < 50000 := by have := t_lt t; have := p.isLt; omega
  obtain ⟨-, -, -, -, -, -, -, e0, e1⟩ := idx_facts t
  refine (Payload.out_apply (iblk1 V c 1 t) (iblk1 V c 2 t) (iblk1 V c 0 t) (iblk1 V c 3 t) p o).trans ?_
  refine Eq.trans ?_ ((Layers.output_apply (V c main_v32) (V c main_v20_0) (V c main_v7) (V c main_arg7)
    ⟨t.val * 5000 + p.val, hp⟩ o).symm.trans ?_)
  · simp only [blk0 V c t p hp, blk1 V c t p hp, blk2 V c t, blk3 V c t]
  · show outputOf V c _ = outputOf V c (((cfg1.win 4).blk t).view.emb (ix2 p o))
    refine congrArg (outputOf V c) (funext fun a => Fin.ext ?_)
    match a with
    | ⟨0, _⟩ => show t.val * 5000 + p.val = win1_4.index t (0 : Fin 2) * 5000 + 1 * p.val; omega
    | ⟨1, _⟩ => show o.val = win1_4.index t (1 : Fin 2) * 64 + 1 * o.val; omega

/-- An entry is in point t's block of the result iff each coordinate is in the block's range. -/
theorem mem_blk4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v33).slice (win1_4.rect t)).set ↔ _
  rw [View.set_slice_whole, Rect.mem_set_unit]
  exact Iff.rfl

/-- Every entry of the result is in the block of the point its row falls in. -/
theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : (i 0).val / 5000 < cfg1.N := lt_of_lt_of_eq (by omega : (i 0).val / 5000 < 10) N_1.symm
  refine ⟨⟨(i 0).val / 5000, hN⟩, flush1_4 _, ?_⟩
  rw [mem_blk4]
  obtain ⟨-, -, -, -, -, -, -, e0, e1⟩ := idx_facts ⟨(i 0).val / 5000, hN⟩
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 64 ≤ (i 1).val ∧ (i 1).val < win1_4.index ⟨(i 0).val / 5000, hN⟩ (1 : Fin 2) * 64 + 64
    rw [e1]; omega

/-- THE RESULT ARRAY when the region is left: the second layer of the region's input arrays. -/
theorem final4 (c : Dev nD) : (dat1 V c).arrAt 4 cfg1.N = outputOf V c :=
  (dat1 V c).arrAt_eq_of_cover 4 (outputOf V c) (fun t _ => flushed4 V c t) cover4

end Cert.KernelIdeal.Layer2

end
-- ==== Proof.KernelValue.lean ====
/-
  The last boundary's contents at the result buffer are the result function of the launch contents of the arguments.

  The second region's output array is the second layer of what the region found; the host stretch before it made that
  from what the first region left; and the first region left the first layer (and its messages) of what the first
  stretch made from the arguments.
-/
import proofs.«152202_j21260088115544_2_alg».proof.Proof.HostSide
import proofs.«152202_j21260088115544_2_alg».proof.Proof.KernelFn
import proofs.«152202_j21260088115544_2_alg».proof.Proof.Layer1
import proofs.«152202_j21260088115544_2_alg».proof.Proof.Layer2

set_option maxRecDepth 16384

noncomputable section

namespace Cert.KernelIdeal.Value

open Cert.KernelIdeal Cert.KernelIdeal.Gen Cert.KernelIdeal.Edges Cert.KernelIdeal.HostSide Cert.KernelIdeal.Fn Cert.Layers
open Idealize.ShloMosaic Idealize.ShloMosaic.TcCoe Idealize.SL.Sem

variable (m : (ℓ : Loc nD τ sig) → Buf (Elt Ideal) ℓ) (ρ : Dev nD → PrngReg)

/-- What the first region leaves in the hidden array. -/
theorem W2_hidden (c : Dev nD) : (W2 m ρ c (Proc.devRef .tc main_v20_0) : Mat 50000 128)
    = hiddenK (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ((Layer1.final6 (V1 m ρ) c).trans ?_)
  show hidden (V1 m ρ c main_v19) (V1 m ρ c main_arg0) (V1 m ρ c main_v4) (V1 m ρ c main_v5) (V1 m ρ c main_arg4) = _
  rw [V1_v19 m ρ c, V1_arg0 m ρ c, V1_v4 m ρ c, V1_v5 m ρ c, V1_arg4 m ρ c]
  rfl

/-- What the first region leaves in the message array. -/
theorem W2_message (c : Dev nD) : (W2 m ρ c (Proc.devRef .tc main_v20_1) : Mat 50000 64)
    = messageK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 7).trans ((Layer1.final7 (V1 m ρ) c).trans ?_)
  show message (hidden (V1 m ρ c main_v19) (V1 m ρ c main_arg0) (V1 m ρ c main_v4) (V1 m ρ c main_v5) (V1 m ρ c main_arg4))
    (V1 m ρ c main_v6) = _
  rw [V1_v19 m ρ c, V1_arg0 m ρ c, V1_v4 m ρ c, V1_v5 m ρ c, V1_arg4 m ρ c, V1_v6 m ρ c]
  rfl

/-- THE RESULT BUFFER at the end of the run: the result function of the arguments' launch contents. -/
theorem result (c : Dev nD) : (W4 m ρ c (Proc.devRef .tc main_v33) : Mat 50000 64)
    = resultK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 4).trans ((Layer2.final4 (V3 m ρ) c).trans ?_)
  show output (V3 m ρ c main_v32) (V3 m ρ c main_v20_0) (V3 m ρ c main_v7) (V3 m ρ c main_arg7) = _
  rw [V3_v32 m ρ c, V3_v20_0 m ρ c, V3_v7 m ρ c, V3_arg7 m ρ c, W2_message m ρ c, W2_hidden m ρ c, W2_v1 m ρ c, W2_v3 m ρ c,
    W2_v7 m ρ c, W2_arg7 m ρ c]
  rfl

end Cert.KernelIdeal.Value

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibEdgeSum.lean ====
/-
  Summing over edges commutes with a linear map, on finite values.

  A graph layer sends to each node the sum, over the edges that end there, of the source nodes' rows. Applying a linear
  map (a row times a weight matrix) to every row BEFORE that sum, or applying it once to the summed row AFTER it, gives
  the same result: both are the double sum over edges e and features k of t e k * w k. On the extended reals this needs
  the rows and the weights to be real numbers, because it moves a factor across a sum (a product with an infinity does
  not distribute). The zero that each edge sum and each row-by-column product starts from is carried along as it is
  computed.
-/
import proofs.«152202_j21260088115544_2_alg».proof.Proof.LibFinite

noncomputable section

open scoped BigOperators

namespace Cert.EdgeSum

open Cert.LibFinite

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Transform each edge's row, then sum over the edges = sum the rows over the edges, then transform: for real rows
    `t e` and real weights `w`, with the zeros the sums are accumulated from. -/
theorem sum_transform_comm {ε κ : Type} [Fintype κ] (s : Finset ε) (t : ε → κ → EReal) (w : κ → EReal)
    (ht : ∀ e k, IsFin (t e k)) (hw : ∀ k, IsFin (w k)) :
    (0 + ∑ e ∈ s, ∑ k, t e k * w k) = ∑ k, (0 + ∑ e ∈ s, t e k) * w k := by
  choose tr htr using ht
  choose wr hwr using hw
  have hL : (0 + ∑ e ∈ s, ∑ k, t e k * w k) = ((∑ e ∈ s, ∑ k, tr e k * wr k : ℝ) : EReal) := by
    rw [zero_add, coe_sum]
    refine Finset.sum_congr rfl fun e _ => ?_
    rw [coe_sum]
    exact Finset.sum_congr rfl fun k _ => by rw [htr, hwr, EReal.coe_mul]
  have hR : (∑ k, (0 + ∑ e ∈ s, t e k) * w k) = ((∑ k, (∑ e ∈ s, tr e k) * wr k : ℝ) : EReal) := by
    rw [coe_sum]
    refine Finset.sum_congr rfl fun k _ => ?_
    rw [zero_add, EReal.coe_mul, coe_sum, hwr]
    congr 1
    exact Finset.sum_congr rfl fun e _ => htr e k
  rw [hL, hR]
  congr 1
  rw [Finset.sum_comm]
  exact Finset.sum_congr rfl fun k _ => (Finset.sum_mul _ _ _).symm

/-- A sum accumulated from zero over any set of edges of real rows is real. -/
theorem isFin_edge_sum {ε : Type} (s : Finset ε) (f : ε → EReal) (h : ∀ e, IsFin (f e)) : IsFin (0 + ∑ e ∈ s, f e) :=
  IsFin.add IsFin.zero (IsFin.sum s f fun e _ => h e)

/-- A row-by-column product of real rows and columns is real. -/
theorem isFin_dot {κ : Type} [Fintype κ] (a b : κ → EReal) (ha : ∀ k, IsFin (a k)) (hb : ∀ k, IsFin (b k)) :
    IsFin (∑ k, a k * b k) :=
  IsFin.sum _ _ fun k _ => IsFin.mul (ha k) (hb k)

end Cert.EdgeSum

end
-- ==== Proof.Bridge.lean ====
/-
  The reference computes the kernel's function.

  The reference aggregates the node features over the edges, applies the first layer, aggregates the HIDDEN rows over
  the same edges, and only then multiplies by the second relation weights; the kernel multiplies every hidden row by
  those weights first and aggregates the products. Entry (n, o) of the two differs only there:
    reference  sum_k (0 + sum_{edges e into n} hidden (src e, k)) * w5 (o, k)
    kernel     0 + sum_{edges e into n} sum_k hidden (src e, k) * w5 (o, k)
  and these are equal when the hidden entries and the weights are real numbers, which they are when the arguments are:
  a hidden entry is a maximum with zero of sums of products of argument entries. The first layer itself, the root term
  and the bias are the same expressions on both sides; the reference contracts against the weight matrices as given
  (row o, column k) where the kernel contracts against their transposes (row k, column o).
-/
import proofs.«152202_j21260088115544_2_alg».proof.Proof.Gen.ReferenceIdeal.Read
import proofs.«152202_j21260088115544_2_alg».proof.Proof.KernelFn
import proofs.«152202_j21260088115544_2_alg».proof.Proof.LibEdgeSum
import Idealize.ShloMosaic.Lib.ValueLayout

set_option maxRecDepth 16384

noncomputable section

open scoped BigOperators

namespace Cert.Bridge

open Cert.ReferenceIdeal.Read Cert.KernelIdeal.Edges Cert.KernelIdeal.Fn Cert.Layers Cert.LibFinite Cert.EdgeSum
open Idealize.ShloMosaic Idealize.ShloMosaic.ValueIdx

variable (x : Mat 50000 128) (e : IVec ⟨2, ![2, 800000]⟩ 32) (w2 w3 : Mat 128 128) (b1 : Row 128) (w5 w6 : Mat 64 128) (b2 : Row 64)

/-! ## Where the reference's contractions and bias broadcasts read -/

theorem l14 (n : Fin 50000) (q k : Fin 128) : lidx_main_v14 (ix2 n q) k = ix2 n k :=
  funext fun a => Fin.ext (by match a with | ⟨0, _⟩ => rfl | ⟨1, _⟩ => rfl)
theorem r14 (n : Fin 50000) (q k : Fin 128) : ridx_main_v14 (ix2 n q) k = ix2 q k :=
  funext fun a => Fin.ext (by match a with | ⟨0, _⟩ => rfl | ⟨1, _⟩ => rfl)
theorem l15 (n : Fin 50000) (q k : Fin 128) : lidx_main_v15 (ix2 n q) k = ix2 n k :=
  funext fun a => Fin.ext (by match a with | ⟨0, _⟩ => rfl | ⟨1, _⟩ => rfl)
theorem r15 (n : Fin 50000) (q k : Fin 128) : ridx_main_v15 (ix2 n q) k = ix2 q k :=
  funext fun a => Fin.ext (by match a with | ⟨0, _⟩ => rfl | ⟨1, _⟩ => rfl)
theorem l31 (n : Fin 50000) (o : Fin 64) (k : Fin 128) : lidx_main_v31 (ix2 n o) k = ix2 n k :=
  funext fun a => Fin.ext (by match a with | ⟨0, _⟩ => rfl | ⟨1, _⟩ => rfl)
theorem r31 (n : Fin 50000) (o : Fin 64) (k : Fin 128) : ridx_main_v31 (ix2 n o) k = ix2 o k :=
  funext fun a => Fin.ext (by match a with | ⟨0, _⟩ => rfl | ⟨1, _⟩ => rfl)
theorem l32 (n : Fin 50000) (o : Fin 64) (k : Fin 128) : lidx_main_v32 (ix2 n o) k = ix2 n k :=
  funext fun a => Fin.ext (by match a with | ⟨0, _⟩ => rfl | ⟨1, _⟩ => rfl)
theorem r32 (n : Fin 50000) (o : Fin 64) (k : Fin 128) : ridx_main_v32 (ix2 n o) k = ix2 o k :=
  funext fun a => Fin.ext (by match a with | ⟨0, _⟩ => rfl | ⟨1, _⟩ => rfl)
theorem bias1 (n : Fin 50000) (q : Fin 128) : idx_main_v17 (idx_main_v18 (ix2 n q)) = ix1 q :=
  funext fun a => Fin.ext (by match a with | ⟨0, _⟩ => rfl)
theorem bias2 (n : Fin 50000) (o : Fin 64) : idx_main_v34 (idx_main_v35 (ix2 n o)) = ix1 o :=
  funext fun a => Fin.ext (by match a with | ⟨0, _⟩ => rfl)

/-! ## The reference's aggregates are the same aggregates -/

/-- The reference's first aggregate is the aggregate of the node features over the edges. -/
theorem ref_agg1 : val_main_v13 (F := Ideal) x e = aggregate128 x (edgeSrc e) (edgeDst e) := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
  unfold aggregate128 srcRows dstRows edgeSrc edgeDst
  rfl

/-- The reference's second aggregate is the aggregate of its hidden array over the same edges. -/
theorem ref_agg2 : val_main_v30 (F := Ideal) x e w2 w3 b1
    = aggregate128 (val_main_v20 (F := Ideal) x e w2 w3 b1) (edgeSrc e) (edgeDst e) := by
  unfold val_main_v30 val_main_v29 val_main_v28 val_main_v27 val_main_v26 val_main_v25 val_main_v24 val_main_v23 val_main_v22
    val_main_v21 val_main_v3 val_main_v2 val_main_v1 val_main_v0 val_main_c_1 val_main_c_2 val_main_cst_3
  unfold aggregate128 srcRows dstRows edgeSrc edgeDst
  rfl

/-! ## The hidden array -/

/-- The reference's hidden array is the kernel's. -/
theorem ref_hidden : val_main_v20 (F := Ideal) x e w2 w3 b1 = hiddenK x e w2 w3 b1 := by
  funext i
  obtain ⟨n, q, rfl⟩ : ∃ (n : Fin 50000) (q : Fin 128), i = ix2 n q := ⟨i 0, i 1, eq_ix2 i⟩
  rw [val_main_v20_apply, val_main_v19_apply, val_main_v16_apply, val_main_v14_apply, val_main_v15_apply, val_main_v18_apply,
    val_main_v17_apply, val_main_call0_v0_apply, val_main_call0_cst_apply, ref_agg1]
  rw [hiddenK_apply]
  simp only [l14, r14, l15, r15, bias1, Ideal.maximumf_def, Ideal.addf_def, Ideal.ofBits_def, Ideal.ofBits_zero_f32]

/-- With real arguments every hidden entry is a real number. -/
theorem hidden_isFin (hx : ∀ i, IsFin (x i)) (h2 : ∀ i, IsFin (w2 i)) (h3 : ∀ i, IsFin (w3 i)) (hb1 : ∀ i, IsFin (b1 i))
    (i : (⟨2, ![50000, 128]⟩ : Shape).Idx) : IsFin (hiddenK x e w2 w3 b1 i) := by
  obtain ⟨n, q, rfl⟩ : ∃ (n : Fin 50000) (q : Fin 128), i = ix2 n q := ⟨i 0, i 1, eq_ix2 i⟩
  rw [hiddenK_apply]
  refine IsFin.max (IsFin.add (IsFin.add (isFin_dot _ _ (fun k => ?_) (fun k => h2 _)) (isFin_dot _ _ (fun k => hx _) (fun k => h3 _))) (hb1 _)) IsFin.zero
  rw [aggregate128_apply]; exact isFin_edge_sum _ _ fun _ => hx _

/-! ## The result -/

/-- With real arguments the reference's result is the kernel's. -/
theorem ref_eq_kernel (hx : ∀ i, IsFin (x i)) (h2 : ∀ i, IsFin (w2 i)) (h3 : ∀ i, IsFin (w3 i)) (hb1 : ∀ i, IsFin (b1 i))
    (h5 : ∀ i, IsFin (w5 i)) :
    val_main_v36 (F := Ideal) x e w2 w3 b1 w5 w6 b2 = resultK x e w2 w3 b1 w5 w6 b2 := by
  funext i
  obtain ⟨n, o, rfl⟩ : ∃ (n : Fin 50000) (o : Fin 64), i = ix2 n o := ⟨i 0, i 1, eq_ix2 i⟩
  rw [val_main_v36_apply, val_main_v33_apply, val_main_v31_apply, val_main_v32_apply, val_main_v35_apply, val_main_v34_apply,
    ref_agg2, ref_hidden]
  rw [resultK_apply]
  simp only [l31, r31, l32, r32, bias2, Ideal.addf_def, aggregate128_apply, messageK_apply]
  refine congrArg₂ (· + ·) (congrArg₂ (· + ·) ?_ rfl) rfl
  exact (sum_transform_comm (edgesInto (edgeDst e) n) (fun ed k => hiddenK x e w2 w3 b1 (ix2 (srcOf (edgeSrc e) ed) k))
    (fun k => w5 (ix2 o k)) (fun ed k => hidden_isFin x e w2 w3 b1 hx h2 h3 hb1 _) (fun k => h5 _)).symm

end Cert.Bridge

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«152202_j21260088115544_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.PreFinite.lean ====
/-
  What the precondition says: every entry of every float argument is a real number.

  The precondition is the conjunction, over the seven float arguments, of "all entries are below +infinity in absolute
  value". Its printed form nests the conjunctions to the left, one argument at a time; each conjunct, being true, says
  that no entry of that argument is an infinity.
-/
import proofs.«152202_j21260088115544_2_alg».proof.Pre_finite_inputs
import proofs.«152202_j21260088115544_2_alg».proof.Proof.Gen.Pre_finite_inputs
import proofs.«152202_j21260088115544_2_alg».proof.Proof.LibFinDecode
import Idealize.ShloMosaic.Lib.Affine

set_option maxRecDepth 16384

noncomputable section

namespace Cert.Pre_finite_inputs.Decode

open Cert.Pre_finite_inputs Cert.Pre_finite_inputs.Gen Idealize.ShloMosaic Idealize.ShloMosaic.ValueIdx
open Cert.LibFinite Cert.LibFinDecode

/-- The precondition, true, makes every entry of the seven float arguments a real number. -/
theorem fin_of_pre (a0 : FVec Ideal S50000x128 .f32) (a1 : IVec S2x800000 32) (a2 a3 : FVec Ideal S128x128 .f32)
    (a4 : FVec Ideal S128 .f32) (a5 a6 : FVec Ideal S64x128 .f32) (a7 : FVec Ideal S64 .f32)
    (h : fn (F := Ideal) a0 a1 a2 a3 a4 a5 a6 a7 = fun _ => 1#1) :
    (∀ i, IsFin (a0 i)) ∧ (∀ i, IsFin (a2 i)) ∧ (∀ i, IsFin (a3 i)) ∧ (∀ i, IsFin (a4 i)) ∧ (∀ i, IsFin (a5 i))
      ∧ (∀ i, IsFin (a6 i)) ∧ (∀ i, IsFin (a7 i)) := by
  have h0 := congrFun h ix0
  dsimp only [fn, fn_part1] at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨all_fin a0 _ _ _ e0, all_fin a2 _ _ _ e2, all_fin a3 _ _ _ e3, all_fin a4 _ _ _ e4, all_fin a5 _ _ _ e5,
    all_fin a6 _ _ _ e6, all_fin a7 _ _ _ e7⟩

end Cert.Pre_finite_inputs.Decode

end
-- ==== Proof.lean ====
/- The proof of `Cert.Claim` for a two-layer graph convolution.

   The kernel aggregates the node features over the edges (a row gather followed by a row scatter-add, on the host),
   runs the first layer in one tiled region (two matrix products, a bias, a clamp at zero) and in the same region
   multiplies every hidden row by the second layer's relation weights; it then aggregates those products over the same
   edges and runs the second layer's remaining terms in a second tiled region. The reference aggregates the hidden rows
   first and multiplies afterwards. Over the extended reals the two agree when the arguments are real numbers: a sum
   over edges commutes with a linear map of real rows (Proof/LibEdgeSum.lean).

   Proof/KernelRun.lean: the kernel's run with its result kept. Proof/Layer1.lean, Proof/Layer2.lean: what each region
   leaves in its output arrays, as one whole-array function (Proof/Layers.lean) of what it found, from the bodies'
   arithmetic at an entry (Proof/Payloads.lean). Proof/Edges.lean, Proof/HostSide.lean: the host operations around the
   regions. Proof/KernelFn.lean, Proof/KernelValue.lean: the kernel's result as one function of its arguments.
   Proof/Bridge.lean: the reference's result is that function, given real arguments (Proof/PreFinite.lean reads them
   off the precondition). The frames of the two kernel programs are the generated ones; the reference's frame is its
   generated run with the result dropped; the idealization rewrote nothing. -/
import proofs.«152202_j21260088115544_2_alg».proof.Defs
import proofs.«152202_j21260088115544_2_alg».proof.Proof.Gen.Kernel
import proofs.«152202_j21260088115544_2_alg».proof.Proof.Gen.Kernel.Skeleton
import proofs.«152202_j21260088115544_2_alg».proof.Proof.Gen.Kernel.Launch
import proofs.«152202_j21260088115544_2_alg».proof.Proof.Gen.Kernel.Points
import proofs.«152202_j21260088115544_2_alg».proof.Proof.Gen.Kernel.Frame
import proofs.«152202_j21260088115544_2_alg».proof.Proof.Gen.KernelIdeal
import proofs.«152202_j21260088115544_2_alg».proof.Proof.Gen.KernelIdeal.Skeleton
import proofs.«152202_j21260088115544_2_alg».proof.Proof.Gen.KernelIdeal.Launch
import proofs.«152202_j21260088115544_2_alg».proof.Proof.Gen.KernelIdeal.Points
import proofs.«152202_j21260088115544_2_alg».proof.Proof.Gen.KernelIdeal.Frame
import proofs.«152202_j21260088115544_2_alg».proof.Proof.Gen.ReferenceIdeal
import proofs.«152202_j21260088115544_2_alg».proof.Proof.Gen.ReferenceIdeal.Run
import proofs.«152202_j21260088115544_2_alg».proof.Proof.Gen.ReferenceIdeal.Read
import proofs.«152202_j21260088115544_2_alg».proof.Proof.Gen.Pre_finite_inputs
import proofs.«152202_j21260088115544_2_alg».proof.Proof.KernelRun
import proofs.«152202_j21260088115544_2_alg».proof.Proof.KernelValue
import proofs.«152202_j21260088115544_2_alg».proof.Proof.Bridge
import proofs.«152202_j21260088115544_2_alg».proof.Proof.PreFinite
import Idealize.ShloMosaic.Adequacy
import Idealize.ShloMosaic.Init

set_option maxRecDepth 16384

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, real by the precondition, both programs end with the same result: the
    kernel's run ends at its result function of the arguments, and the reference's result is that function. -/
theorem algebraic : Cert.algebraic_KernelIdeal_ReferenceIdeal := by
  intro m ρ m' ρ' hpre hagree
  refine ⟨fun c => Cert.KernelIdeal.Fn.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result m ρ c), (h c).2⟩)
      (Cert.KernelIdeal.RunValue.run m ρ)
  · refine (θ_run Cert.ReferenceIdeal.defs _ _).mono (fun r h c => ⟨?_, (h c).2⟩)
      (Cert.ReferenceIdeal.Value.run (F := Ideal) m' ρ')
    obtain ⟨f0, f2, f3, f4, f5, f6, f7⟩ := Cert.Pre_finite_inputs.Decode.fin_of_pre _ _ _ _ _ _ _ _ (hpre c)
    obtain ⟨g0, g1, g2, g3, g4, g5, g6, g7⟩ := hagree c
    rw [(h c).1, Cert.ReferenceIdeal.Read.val_main_v36_eq, g0, g1, g2, g3, g4, g5, g6, g7]
    exact Cert.Bridge.ref_eq_kernel _ _ _ _ _ _ _ _ f0 f2 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
